-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S10000x128 .f32) (main_arg1 : FVec F S10000x10000 .f32) (main_arg2 : FVec F S128x128 .f32) (main_arg3 : FVec F S128 .f32) (main_arg4 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩

abbrev nBuf : Space → Nat
  | .hbm => 8
  | .vmem => 8
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S1x128, .f32⟩
  | .hbm, ⟨6, _⟩ => ⟨S1x128, .f32⟩
  | .hbm, ⟨7, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .f32⟩
  | .local _ .vmem, ⟨4, _⟩ => ⟨S1x128, .f32⟩
  | .local _ .vmem, ⟨5, _⟩ => ⟨S1x128, .f32⟩
  | .local _ .vmem, ⟨6, _⟩ => ⟨S400x128, .f32⟩
  | .local _ .vmem, ⟨7, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c400_i32 : BitVec 32 := 400#32
  let v7 : BitVec 32 := Scalar.muli arg0 c400_i32
  let v8 : Index := Scalar.indexCast v7
  let c0_6 : Index := 0#32
  ![v8.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S128_S1x128 : S128.ShapeCasts S1x128
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  h_S400x128 : 0 < S400x128.numel
  broadcasts_S1x128_S400x128 : S1x128.Broadcasts S400x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S400x128_S400x128_0_0 : ∀ a, (![0, 0] : Fin 2 → Nat) a + S400x128.size a ≤ S400x128.size a
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  k0_off1_inb : ∀ i : grid0.Coords, ∀ a, (k0_off1 i) a + S400x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x128.size a ≤ S10000x128.size a
  hwx0_5 : ∀ i : grid0.Coords, EltTy.bits .f32 = 32 ∨ (Rect.block (s := S10000x128) S400x128.size (cc0_transform_5 i) (hinb0_5 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S400x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩
abbrev S128x1 : Shape := ⟨2, ![128, 1]⟩
abbrev S1x128 : Shape := ⟨2, ![1, 128]⟩

abbrev nBuf : Space → Nat
  | .hbm => 33
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S10000x128, .f32⟩
  | .hbm, ⟨6, _⟩ => ⟨S_, .f32⟩
  | .hbm, ⟨7, _⟩ => ⟨S128, .f32⟩
  | .hbm, ⟨8, _⟩ => ⟨S128x128, .i32⟩
  | .hbm, ⟨9, _⟩ => ⟨S128x128, .i32⟩
  | .hbm, ⟨10, _⟩ => ⟨S_, .i32⟩
  | .hbm, ⟨11, _⟩ => ⟨S128x128, .i32⟩
  | .hbm, ⟨12, _⟩ => ⟨S128x128, .i32⟩
  | .hbm, ⟨13, _⟩ => ⟨S128x128, .i1⟩
  | .hbm, ⟨14, _⟩ => ⟨S128x1, .f32⟩
  | .hbm, ⟨15, _⟩ => ⟨S_, .f32⟩
  | .hbm, ⟨16, _⟩ => ⟨S128x128, .f32⟩
  | .hbm, ⟨17, _⟩ => ⟨S128x128, .f32⟩
  | .hbm, ⟨18, _⟩ => ⟨S128x128, .f32⟩
  | .hbm, ⟨19, _⟩ => ⟨S128x128, .i32⟩
  | .hbm, ⟨20, _⟩ => ⟨S128x128, .i32⟩
  | .hbm, ⟨21, _⟩ => ⟨S_, .i32⟩
  | .hbm, ⟨22, _⟩ => ⟨S128x128, .i32⟩
  | .hbm, ⟨23, _⟩ => ⟨S128x128, .i32⟩
  | .hbm, ⟨24, _⟩ => ⟨S128x128, .i1⟩
  | .hbm, ⟨25, _⟩ => ⟨S128x128, .f32⟩
  | .hbm, ⟨26, _⟩ => ⟨S128x128, .f32⟩
  | .hbm, ⟨27, _⟩ => ⟨S10000x128, .f32⟩
  | .hbm, ⟨28, _⟩ => ⟨S10000x128, .f32⟩
  | .hbm, ⟨29, _⟩ => ⟨S10000x128, .f32⟩
  | .hbm, ⟨30, _⟩ => ⟨S1x128, .f32⟩
  | .hbm, ⟨31, _⟩ => ⟨S10000x128, .f32⟩
  | .hbm, ⟨32, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_cst : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_c : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_cst_0 : Ref sig .tc := ⟨.hbm, 15, rfl⟩
abbrev main_call0_call0_v0 : Ref sig .tc := ⟨.hbm, 16, rfl⟩
abbrev main_call0_call0_v1 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩

abbrev nD : Nat := 1
abbrev τ : Topo := Topo.v7x

variable {F : FTy → Type} [FloatOps F]

class Facts₀ : Prop where
  pads_S128_S128_000 : S128.Pads (![0] : Fin 1 → Nat) ![0] ![0] S128
  h_S_ : 0 < S_.numel
  bcast_S_S128x128 : S_.BroadcastsInDim S128x128 (![] : Fin 0 → Fin S128x128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.Spec.lean ====
/-
  The layer as one function of the argument arrays, over the extended reals.

  With x : [10000, 128], L : [10000, 10000], W : [128, 128] and d, b : [128],

    out[r, j] = (∑ k, (x[r, k] - (∑ n, L[r, n] * x[n, k]) * (1 + d[k])) * W[k, j]) + b[j].

  The one law between the two programs: a row e multiplied into the matrix diag(d) + I picks out one entry,
  ∑ k', e[k'] * ((if k' = k then d[k'] else 0) + (if k' = k then 1 else 0)) = e[k] * (1 + d[k]).
  Every other summand is e[k'] * (0 + 0) = 0, which holds for every extended real, the infinities included, so the
  law needs no finiteness.
-/
import Idealize.ShloMosaic.PureOps.Ideal
import Idealize.ShloMosaic.PureOps.IdealRules
import Idealize.ShloMosaic.Lib.ValueIdx

noncomputable section

namespace Cert.Layer

open Idealize.ShloMosaic Idealize.ShloMosaic.ValueIdx
open scoped BigOperators

/-- Entry (r, k) of L · x. -/
def prop (x : (⟨2, ![10000, 128]⟩ : Shape).Idx → EReal) (L : (⟨2, ![10000, 10000]⟩ : Shape).Idx → EReal)
    (r : Fin 10000) (k : Fin 128) : EReal :=
  ∑ n : Fin 10000, L (ix2 r n) * x (ix2 n k)

/-- Entry (r, k) of x - (L · x) scaled column by column by 1 + d. -/
def resid (x : (⟨2, ![10000, 128]⟩ : Shape).Idx → EReal) (L : (⟨2, ![10000, 10000]⟩ : Shape).Idx → EReal)
    (d : (⟨1, ![128]⟩ : Shape).Idx → EReal) (r : Fin 10000) (k : Fin 128) : EReal :=
  x (ix2 r k) - prop x L r k * (1 + d (ix1 k))

/-- Entry (r, j) of the layer's output. -/
def layerAt (x : (⟨2, ![10000, 128]⟩ : Shape).Idx → EReal) (L : (⟨2, ![10000, 10000]⟩ : Shape).Idx → EReal)
    (W : (⟨2, ![128, 128]⟩ : Shape).Idx → EReal) (d b : (⟨1, ![128]⟩ : Shape).Idx → EReal)
    (r : Fin 10000) (j : Fin 128) : EReal :=
  (∑ k : Fin 128, resid x L d r k * W (ix2 k j)) + b (ix1 j)

/-- The layer's output array. -/
def layerOut (x : (⟨2, ![10000, 128]⟩ : Shape).Idx → EReal) (L : (⟨2, ![10000, 10000]⟩ : Shape).Idx → EReal)
    (W : (⟨2, ![128, 128]⟩ : Shape).Idx → EReal) (d b : (⟨1, ![128]⟩ : Shape).Idx → EReal) :
    (⟨2, ![10000, 128]⟩ : Shape).Idx → EReal :=
  fun i => layerAt x L W d b (i 0) (i 1)

theorem layerOut_apply (x : (⟨2, ![10000, 128]⟩ : Shape).Idx → EReal) (L : (⟨2, ![10000, 10000]⟩ : Shape).Idx → EReal)
    (W : (⟨2, ![128, 128]⟩ : Shape).Idx → EReal) (d b : (⟨1, ![128]⟩ : Shape).Idx → EReal) (r : Fin 10000) (j : Fin 128) :
    layerOut x L W d b (ix2 r j) = layerAt x L W d b r j := rfl

/-- A row times diag(d) + I picks out one entry, scaled by 1 + d there. -/
theorem sum_diag_add_eye (e dd : Fin 128 → EReal) (k : Fin 128) :
    ∑ k' : Fin 128, e k' * ((if k' = k then dd k' else 0) + (if k' = k then 1 else 0)) = e k * (1 + dd k) := by
  rw [Finset.sum_eq_single k]
  · rw [if_pos rfl, if_pos rfl, add_comm]
  · intro k' _ hne
    rw [if_neg hne, if_neg hne, add_zero, mul_zero]
  · intro h
    exact absurd (Finset.mem_univ k) h

/-- The f32 word of 1.0 is the extended real 1. -/
theorem one_f32 : Ideal.ofBits .f32 0x3F800000#32 = 1 :=
  IdealRules.sign_bit.ideal_onePat .f32

end Cert.Layer

end
-- ==== Proof.LibPlainDot.lean ====
/-
  A plain matrix product read at an index.

  The dimension numbers of an [a, c] × [c, b] → [a, b] product contract the left operand's axis 1 with the right
  operand's axis 0 and have no batch axis. At result index (p, q) and contraction position k the left operand is
  read at (p, k) and the right operand at (k, q), so the sum over the contraction shape's one-axis index set is the
  sum over k : Fin c of lhs (p, k) * rhs (k, q) — in any commutative additive monoid with a product, the extended
  reals included. The statement is over variable extents; a printed record with these six lists is this one by
  reflexivity.
-/
import Idealize.ShloMosaic.Lib.ValueIdx
import Idealize.ShloMosaic.PureOps.Ideal.Laws

noncomputable section

namespace Cert.Lib.PlainDot

open Idealize.ShloMosaic Idealize.ShloMosaic.ValueIdx
open scoped BigOperators

variable {a c b : Nat}

/-- The dimension numbers of the plain product [a, c] × [c, b] → [a, b]. -/
abbrev dims (wf : DotDims.WF ⟨2, ![a, c]⟩ ⟨2, ![c, b]⟩ ⟨2, ![a, b]⟩ [1] [0] [0] [1] [] []) :
    DotDims ⟨2, ![a, c]⟩ ⟨2, ![c, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, c]⟩ ⟨2, ![c, b]⟩ ⟨2, ![a, b]⟩ [1] [0] [0] [1] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the contraction position. -/
theorem rhs_row (i : (⟨2, ![a, b]⟩ : Shape).Idx) (k : (dims wf).contr.Idx) :
    ((dims wf).rhsIdx i k 0).val = (k ⟨0, Nat.one_pos⟩).val :=
  (dims wf).rhsIdx_val_of_single rfl i k

/-- The right operand's column is the result's column. -/
theorem rhs_col (i : (⟨2, ![a, b]⟩ : Shape).Idx) (k : (dims wf).contr.Idx) :
    ((dims wf).rhsIdx i k 1).val = (i 1).val := by
  unfold DotDims.rhsIdx
  rw [dif_neg (show ¬(1 : Fin 2) ∈ (dims wf).rhsBatch from List.not_mem_nil),
    dif_pos (show (1 : Fin 2) ∈ (dims wf).rhsNonContracting from List.mem_singleton.mpr rfl)]
  rfl

/-- The product's sum at (p, q): over k, the left operand at (p, k) times the right operand at (k, q). -/
theorem sum_apply {M : Type*} [AddCommMonoid M] [Mul M] (lhs : (⟨2, ![a, c]⟩ : Shape).Idx → M)
    (rhs : (⟨2, ![c, b]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 k q) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 k q :=
    funext fun ax => Fin.ext (by
      match ax with
      | ⟨0, _⟩ => exact (rhs_row wf _ _).trans hk
      | ⟨1, _⟩ => exact rhs_col wf _ _)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![c, b]⟩ φ₂) (p : Fin a) (q : Fin b) :
    matmul (dims wf) prec lhs rhs (constant ⟨2, ![a, b]⟩ .f32 0x00000000#32) (ix2 p q)
      = ∑ k : Fin c, lhs (ix2 p k) * rhs (ix2 k q) :=
  (Ideal.matmul_constant_zero_apply (dims wf) prec lhs rhs (ix2 p q)).trans (sum_apply wf lhs rhs p q)

/-- The host's product, at the exact values, read at (p, q). -/
theorem dotGeneral_apply {φ₁ φ₂ : FTy} (prec : Option ContractPrecision) (lhs : FVec Ideal ⟨2, ![a, c]⟩ φ₁)
    (rhs : FVec Ideal ⟨2, ![c, b]⟩ φ₂) (p : Fin a) (q : Fin b) :
    Host.dotGeneral (dims wf) prec lhs rhs (ix2 p q) = ∑ k : Fin c, lhs (ix2 p k) * rhs (ix2 k q) :=
  (Ideal.dotGeneral_apply (dims wf) prec _ lhs rhs (ix2 p q)).trans (sum_apply wf lhs rhs p q)

end Cert.Lib.PlainDot

end
-- ==== Proof.KernelPayload.lean ====
/-
  What the kernel's body stores, read at one entry of its [400, 128] block.

  From the loads L' : [400, 10000] (a block of rows of L), x : [10000, 128], d' and b' : [1, 128], W : [128, 128]
  and x' : [400, 128] (the rows of x that go with the block), the body stores, at (p, q),

    (∑ k, (x'[p, k] - (∑ n, L'[p, n] * x[n, k]) * (1 + d'[0, k])) * W[k, q]) + b'[0, q].

  Both products accumulate into a zero block, so each is its plain sum; the roundings to bf16 in front of the
  second product are the identity on exact values; the scale row and the bias row are broadcast down the block's rows.
-/
import proofs.«111476_g9019431321742_cont_sun_c4_46_19_alg».proof.Proof.Gen.KernelIdeal.Skeleton
import proofs.«111476_g9019431321742_cont_sun_c4_46_19_alg».proof.Proof.Spec
import proofs.«111476_g9019431321742_cont_sun_c4_46_19_alg».proof.Proof.LibPlainDot
import Idealize.ShloMosaic.Lib.ValueLayout

noncomputable section

namespace Cert.KernelIdeal.BlockValue

open Cert.KernelIdeal Cert.KernelIdeal.Gen Idealize.ShloMosaic Idealize.ShloMosaic.ValueIdx
open scoped BigOperators

/-- The first product's dimension numbers are the plain [400, 10000] × [10000, 128] ones. -/
theorem dotL_eq : dot_S400x10000_S10000x128_S400x128_1_0_0_1_n_n
    = Cert.Lib.PlainDot.dims Facts₀.dot_S400x10000_S10000x128_S400x128_1_0_0_1_n_n_wf := rfl

/-- The second product's are the plain [400, 128] × [128, 128] ones. -/
theorem dotW_eq : dot_S400x128_S128x128_S400x128_1_0_0_1_n_n
    = Cert.Lib.PlainDot.dims Facts₀.dot_S400x128_S128x128_S400x128_1_0_0_1_n_n_wf := rfl

/-- The scale row 1 + d', broadcast down the rows, at (p, k). -/
theorem scale_apply (v3 : Vec Ideal S1x128 .f32) (p : Fin 400) (k : Fin 128) :
    broadcastTo S400x128
        (addf (broadcast S1x128 (Scalar.ofBits (F := Ideal) .f32 0x3F800000#32))
          (shapeCast S1x128 v3 Facts₀.shapeCasts_S1x128_S1x128))
        Facts₀.broadcasts_S1x128_S400x128 (ix2 p k)
      = 1 + v3 (ix2 (0 : Fin 1) k) := by
  rw [broadcastTo_1b_ab_apply, shapeCast_self, addf_apply, broadcast_apply]
  exact congrArg (· + v3 (ix2 (0 : Fin 1) k)) Cert.Layer.one_f32

/-- The bias row, broadcast down the rows, at (p, q). -/
theorem bias_apply (v17 : Vec Ideal S1x128 .f32) (p : Fin 400) (q : Fin 128) :
    broadcastTo S400x128 (shapeCast S1x128 v17 Facts₀.shapeCasts_S1x128_S1x128)
        Facts₀.broadcasts_S1x128_S400x128 (ix2 p q)
      = v17 (ix2 (0 : Fin 1) q) := by
  rw [broadcastTo_1b_ab_apply, shapeCast_self]

/-- The stored value at (p, q). -/
theorem pay_apply (v0 : Vec Ideal S400x10000 .f32) (v1 : Vec Ideal S10000x128 .f32) (v3 : Vec Ideal S1x128 .f32)
    (v9 : Vec Ideal S400x128 .f32) (v14 : Vec Ideal S128x128 .f32) (v17 : Vec Ideal S1x128 .f32)
    (p : Fin 400) (q : Fin 128) :
    k0_pay1 (F := Ideal) v0 v1 v3 v9 v14 v17 (ix2 p q)
      = (∑ k : Fin 128, (v9 (ix2 p k) - (∑ n : Fin 10000, v0 (ix2 p n) * v1 (ix2 n k)) * (1 + v3 (ix2 (0 : Fin 1) k)))
            * v14 (ix2 k q))
          + v17 (ix2 (0 : Fin 1) q) := by
  unfold k0_pay1
  rw [addf_apply, bias_apply, dotW_eq, Cert.Lib.PlainDot.matmul_zero_apply]
  refine congrArg (· + v17 (ix2 (0 : Fin 1) q)) (Finset.sum_congr rfl fun k _ => ?_)
  rw [truncf_apply, truncf_apply, subf_apply, mulf_apply, scale_apply, dotL_eq, Cert.Lib.PlainDot.matmul_zero_apply]

end Cert.KernelIdeal.BlockValue

end
-- ==== Proof.KernelPiece.lean ====
/-
  What one run of the kernel's body leaves in the output block.

  The body has one control case and one store, through the whole [400, 128] block. Its loads read the whole staging
  buffers of L's row block, x, W, d' and b', and one more rectangle of x: the 400 rows starting at the offset the body
  computes from the grid position. So the block it leaves is the stored value as a function of those loads.
-/
import proofs.«111476_g9019431321742_cont_sun_c4_46_19_alg».proof.Proof.Gen.KernelIdeal.Frame
import Idealize.ShloMosaic.Lib.Pipeline.Value
import Idealize.ShloMosaic.Lib.Tactic

noncomputable section

namespace Cert.KernelIdeal.BlockValue

open Cert.KernelIdeal Cert.KernelIdeal.Gen Idealize.ShloMosaic Idealize.ShloMosaic.TcCoe Idealize.SL.Sem
open Idealize.ShloMosaic.Tactic

variable {F : FTy → Type} [FloatOps F]

theorem hz : (![0, 0] : Fin 2 → Nat) = fun _ => 0 := funext fun a => by fin_cases a <;> rfl

/-- The block the body leaves: the stored value of its loads. -/
theorem out_eq (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S400x128 .f32) (harg6 : arg6.IsWhole)
    (x0 : Vec F S400x10000 .f32) (x1 : Vec F S10000x128 .f32) (x2 : Vec F S128x128 .f32) (x3 : Vec F S1x128 .f32) (x4 : Vec F S1x128 .f32) :
    out0_A_5 c i arg1 harg1 arg2 harg2 arg3 harg3 arg4 harg4 arg5 harg5 arg6 harg6 x0 x1 x2 x3 x4
      = k0_pay1 x0 x1 x3 (View.ld x1 (Rect.unit (s := S10000x128) (k0_off1 i) S400x128.size (Facts₀.k0_off1_inb i))) x2 x4 := by
  unfold out0_A_5
  rw [View.read_writes_eq_canon _ _ _ (cover0_A_5 c i arg1 harg1 arg2 harg2 arg3 harg3 arg4 harg4 arg5 harg5 arg6 harg6 x0 x1 x2 x3 x4)]
  unfold kernelRun0_A
  dsimp only
  rw [View.canon_unit_zero hz]
  simp only [View.readAt_eq_ld, harg1.read_unread, harg2.read_unread, harg3.read_unread, harg4.read_unread,
    harg5.read_unread, View.ld_unit_zero (S := S400x10000) hz, View.ld_unit_zero (S := S10000x128) hz,
    View.ld_unit_zero (S := S128x128) hz, View.ld_unit_zero (S := S1x128) hz]

end Cert.KernelIdeal.BlockValue

end
-- ==== Proof.KernelValue.lean ====
/-
  The kernel's result array is the layer's output of the argument arrays.

  The grid has 25 points. At point t the kernel is handed rows 400 t … 400 t + 399 of L, all of x, W, the scale row and
  the bias row, and writes back rows 400 t … 400 t + 399 of the result; the body also reads rows 400 t … 400 t + 399 of
  x out of the whole of x. So entry (p, q) of what point t writes back is entry (400 t + p, q) of the layer's output,
  and the 25 blocks of 400 rows cover the 10000 rows.
-/
import proofs.«111476_g9019431321742_cont_sun_c4_46_19_alg».proof.Proof.Gen.KernelIdeal.Value
import proofs.«111476_g9019431321742_cont_sun_c4_46_19_alg».proof.Proof.KernelPayload
import proofs.«111476_g9019431321742_cont_sun_c4_46_19_alg».proof.Proof.KernelPiece
import Idealize.ShloMosaic.Lib.Pipeline.Value
import Idealize.ShloMosaic.Lib.ValueLayout

noncomputable section

namespace Cert.KernelIdeal.ArrayValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open scoped BigOperators

section AnyValues

variable {F : FTy → Type} [FloatOps F]
variable (m : (ℓ : Loc nD τ sig) → Buf (Elt F) ℓ) (ρ : Dev nD → PrngReg)

/-- The block index maps over the grid: L's rows and the result's rows move with the point, everything else stays at
    the origin; the grid position is the point's number. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ ((grid0.coords t) 0).val = t.val :=
  (by decide +kernel : ∀ t : Fin grid0.N, _)

/-- Row p of point t's block is row 400 t + p of the array. -/
theorem row_lt (t : Fin cfg0.N) (p : Fin 400) : 400 * t.val + p.val < 10000 := by
  have hN : cfg0.N = 25 := N_0
  have := t.isLt
  have := p.isLt
  omega

/-- The array row of row p of point t's block. -/
abbrev row (t : Fin cfg0.N) (p : Fin 400) : Fin 10000 := ⟨400 * t.val + p.val, row_lt t p⟩

/-! ## What the region finds in the two reshaped rows -/

/-- The scale row the region finds is d, laid out [1, 128]. -/
theorem V_scale (c : Dev nD) (k : Fin 128) :
    (V m c main_v0 : S1x128.Idx → Elt F .f32) (ix2 (0 : Fin 1) k) = m ((c : Thread nD τ).loc main_arg3) (ix1 k) := by
  have e : (V m c main_v0 : S1x128.Idx → Elt F .f32)
      = shapeCast S1x128 (m ((c : Thread nD τ).loc main_arg3)) Facts₀.shapeCasts_S128_S1x128 := by
    dsimp only [V, hostOps0]
    after_results
    rfl
  rw [e]
  exact shapeCast_a_1a_apply _ _ _ _

/-- The bias row the region finds is b, laid out [1, 128]. -/
theorem V_bias (c : Dev nD) (q : Fin 128) :
    (V m c main_v1 : S1x128.Idx → Elt F .f32) (ix2 (0 : Fin 1) q) = m ((c : Thread nD τ).loc main_arg4) (ix1 q) := by
  have e : (V m c main_v1 : S1x128.Idx → Elt F .f32)
      = shapeCast S1x128 (m ((c : Thread nD τ).loc main_arg4)) Facts₀.shapeCasts_S128_S1x128 := by
    dsimp only [V, hostOps0]
    after_results
    rfl
  rw [e]
  exact shapeCast_a_1a_apply _ _ _ _

/-! ## The blocks the body is handed, read at an entry -/

/-- L's block at point t, entry (p, n): L at (400 t + p, n). -/
theorem read_L (c : Dev nD) (t : Fin cfg0.N) (p : Fin 400) (n : Fin 10000) :
    (iblk m c 0 t : Vec F S400x10000 .f32) (ix2 p n) = m ((c : Thread nD τ).loc main_arg1) (ix2 (row t p) n) := by
  obtain ⟨e0, e1, -⟩ := idx_facts t
  rw [← V_main_arg1 m c]
  show V m c main_arg1 (((cfg0.win 0).blk t).view.emb (ix2 p n)) = _
  refine congrArg (V m c main_arg1) (funext fun a => Fin.ext ?_)
  match a with
  | ⟨0, _⟩ => show win0_0.index t (0 : Fin 2) * 400 + 1 * p.val = 400 * t.val + p.val; rw [e0]; omega
  | ⟨1, _⟩ => show win0_0.index t (1 : Fin 2) * 10000 + 1 * n.val = n.val; rw [e1]; omega

/-- x's block is all of x. -/
theorem read_x (c : Dev nD) (t : Fin cfg0.N) (n : Fin 10000) (k : Fin 128) :
    (iblk m c 1 t : Vec F S10000x128 .f32) (ix2 n k) = m ((c : Thread nD τ).loc main_arg0) (ix2 n k) := by
  obtain ⟨-, -, e0, e1, -⟩ := idx_facts t
  rw [← V_main_arg0 m c]
  show V m c main_arg0 (((cfg0.win 1).blk t).view.emb (ix2 n k)) = _
  refine congrArg (V m c main_arg0) (funext fun a => Fin.ext ?_)
  match a with
  | ⟨0, _⟩ => show win0_1.index t (0 : Fin 2) * 10000 + 1 * n.val = n.val; rw [e0]; omega
  | ⟨1, _⟩ => show win0_1.index t (1 : Fin 2) * 128 + 1 * k.val = k.val; rw [e1]; omega

/-- W's block is all of W. -/
theorem read_W (c : Dev nD) (t : Fin cfg0.N) (k q : Fin 128) :
    (iblk m c 2 t : Vec F S128x128 .f32) (ix2 k q) = m ((c : Thread nD τ).loc main_arg2) (ix2 k q) := by
  obtain ⟨-, -, -, -, e0, e1, -⟩ := idx_facts t
  rw [← V_main_arg2 m c]
  show V m c main_arg2 (((cfg0.win 2).blk t).view.emb (ix2 k q)) = _
  refine congrArg (V m c main_arg2) (funext fun a => Fin.ext ?_)
  match a with
  | ⟨0, _⟩ => show win0_2.index t (0 : Fin 2) * 128 + 1 * k.val = k.val; rw [e0]; omega
  | ⟨1, _⟩ => show win0_2.index t (1 : Fin 2) * 128 + 1 * q.val = q.val; rw [e1]; omega

/-- The scale row's block is d. -/
theorem read_d (c : Dev nD) (t : Fin cfg0.N) (k : Fin 128) :
    (iblk m c 3 t : Vec F S1x128 .f32) (ix2 (0 : Fin 1) k) = m ((c : Thread nD τ).loc main_arg3) (ix1 k) := by
  obtain ⟨-, -, -, -, -, -, e0, e1, -⟩ := idx_facts t
  rw [← V_scale m c k]
  show V m c main_v0 (((cfg0.win 3).blk t).view.emb (ix2 (0 : Fin 1) k)) = _
  refine congrArg (V m c main_v0) (funext fun a => Fin.ext ?_)
  match a with
  | ⟨0, _⟩ => show win0_3.index t (0 : Fin 2) * 1 + 1 * 0 = 0; rw [e0]
  | ⟨1, _⟩ => show win0_3.index t (1 : Fin 2) * 128 + 1 * k.val = k.val; rw [e1]; omega

/-- The bias row's block is b. -/
theorem read_b (c : Dev nD) (t : Fin cfg0.N) (q : Fin 128) :
    (iblk m c 4 t : Vec F S1x128 .f32) (ix2 (0 : Fin 1) q) = m ((c : Thread nD τ).loc main_arg4) (ix1 q) := by
  obtain ⟨-, -, -, -, -, -, -, -, e0, e1, -⟩ := idx_facts t
  rw [← V_bias m c q]
  show V m c main_v1 (((cfg0.win 4).blk t).view.emb (ix2 (0 : Fin 1) q)) = _
  refine congrArg (V m c main_v1) (funext fun a => Fin.ext ?_)
  match a with
  | ⟨0, _⟩ => show win0_4.index t (0 : Fin 2) * 1 + 1 * 0 = 0; rw [e0]
  | ⟨1, _⟩ => show win0_4.index t (1 : Fin 2) * 128 + 1 * q.val = q.val; rw [e1]; omega

/-- The rows of x the body reads out of the whole of x at point t, entry (p, k): x at (400 t + p, k). -/
theorem read_xrows (c : Dev nD) (t : Fin cfg0.N) (p : Fin 400) (k : Fin 128) :
    View.ld (iblk m c 1 t : Vec F S10000x128 .f32)
        (Rect.unit (s := S10000x128) (k0_off1 (grid0.coords t)) S400x128.size (Facts₀.k0_off1_inb (grid0.coords t))) (ix2 p k)
      = m ((c : Thread nD τ).loc main_arg0) (ix2 (row t p) k) := by
  obtain ⟨-, -, -, -, -, -, -, -, -, -, -, -, eg⟩ := idx_facts t
  have ho0 : k0_off1 (grid0.coords t) (0 : Fin 2) = 400 * t.val := by
    rw [k0_off1_eq]; show 400 * ((grid0.coords t) 0).val = _; rw [eg]
  have ho1 : k0_off1 (grid0.coords t) (1 : Fin 2) = 0 := by
    rw [k0_off1_eq]; rfl
  have hidx : (Rect.unit (s := S10000x128) (k0_off1 (grid0.coords t)) S400x128.size (Facts₀.k0_off1_inb (grid0.coords t))).emb (ix2 p k)
      = ix2 (row t p) k := funext fun a => Fin.ext (by
    rw [Rect.emb_apply]
    match a with
    | ⟨0, _⟩ => show k0_off1 (grid0.coords t) (0 : Fin 2) + 1 * p.val = 400 * t.val + p.val; rw [ho0]; omega
    | ⟨1, _⟩ => show k0_off1 (grid0.coords t) (1 : Fin 2) + 1 * k.val = k.val; rw [ho1]; omega)
  show (iblk m c 1 t : Vec F S10000x128 .f32) ((Rect.unit (s := S10000x128) (k0_off1 (grid0.coords t)) S400x128.size (Facts₀.k0_off1_inb (grid0.coords t))).emb (ix2 p k)) = _
  rw [hidx]
  exact read_x m c t (row t p) k

end AnyValues

/-! ## The result array, at the exact values -/

section AtIdeal

variable (m : (ℓ : Loc nD τ sig) → Buf (Elt Ideal) ℓ) (ρ : Dev nD → PrngReg)

/-- Equal factors, equal products. -/
theorem prod_congr {a a' b b' : EReal} (ha : a = a') (hb : b = b') : a * b = a' * b' := by rw [ha, hb]

/-- Equal parts, equal summands of the second product. -/
theorem resid_congr {a a' s s' f f' w w' : EReal} (ha : a = a') (hs : s = s') (hf : f = f') (hw : w = w') :
    (a - s * (1 + f)) * w = (a' - s' * (1 + f')) * w' := by rw [ha, hs, hf, hw]

/-- The five argument arrays as launched, at their plain types. -/
abbrev argX (c : Dev nD) : S10000x128.Idx → EReal := m ((c : Thread nD τ).loc main_arg0)
abbrev argL (c : Dev nD) : S10000x10000.Idx → EReal := m ((c : Thread nD τ).loc main_arg1)
abbrev argW (c : Dev nD) : S128x128.Idx → EReal := m ((c : Thread nD τ).loc main_arg2)
abbrev argD (c : Dev nD) : S128.Idx → EReal := m ((c : Thread nD τ).loc main_arg3)
abbrev argB (c : Dev nD) : S128.Idx → EReal := m ((c : Thread nD τ).loc main_arg4)

/-- The layer's output of the argument arrays as launched. -/
abbrev G (c : Dev nD) : S10000x128.Idx → EReal :=
  Cert.Layer.layerOut (argX m c) (argL m c) (argW m c) (argD m c) (argB m c)

/-- Entry (p, q) of what the body stores at point t is entry (400 t + p, q) of the layer's output. -/
theorem block_entry (c : Dev nD) (t : Fin cfg0.N) (p : Fin 400) (q : Fin 128) :
    k0_pay1 (F := Ideal) (iblk m c 0 t) (iblk m c 1 t) (iblk m c 3 t) (View.ld (iblk m c 1 t) (Rect.unit (s := S10000x128) (k0_off1 (grid0.coords t)) S400x128.size (Facts₀.k0_off1_inb (grid0.coords t))))
        (iblk m c 2 t) (iblk m c 4 t) (ix2 p q)
      = G m c (ix2 (row t p) q) := by
  refine (Cert.KernelIdeal.BlockValue.pay_apply (iblk m c 0 t) (iblk m c 1 t) (iblk m c 3 t)
    (View.ld (iblk m c 1 t) (Rect.unit (s := S10000x128) (k0_off1 (grid0.coords t)) S400x128.size (Facts₀.k0_off1_inb (grid0.coords t)))) (iblk m c 2 t) (iblk m c 4 t) p q).trans ?_
  show _ = Cert.Layer.layerAt (argX m c) (argL m c) (argW m c) (argD m c) (argB m c) (row t p) q
  unfold Cert.Layer.layerAt Cert.Layer.resid Cert.Layer.prop
  rw [read_b m c t q]
  refine congrArg (· + argB m c (ix1 q)) (Finset.sum_congr rfl fun k _ => ?_)
  refine resid_congr (read_xrows m c t p k) (Finset.sum_congr rfl fun n _ => ?_) (read_d m c t k) (read_W m c t k q)
  exact prod_congr (read_L m c t p n) (read_x m c t n k)

/-- What point t writes back is its block of the layer's output. -/
theorem flushed_eq (c : Dev nD) (t : Fin cfg0.N) :
    (dats m 0 c).flushed 5 t = ((cfg0.win 5).blk t).view.read (Elt Ideal) (G m c) := by
  rw [Cert.KernelIdeal.Value.flushed5_A, Cert.KernelIdeal.BlockValue.out_eq]
  funext y
  have h0 : (y 0).val < 400 := (y 0).isLt
  have h1 : (y 1).val < 128 := (y 1).isLt
  obtain ⟨-, -, -, -, -, -, -, -, -, -, e0, e1, -⟩ := idx_facts t
  have hy : (cfg0.win 5).xinj (grid0.coords t) y = ix2 (⟨(y 0).val, h0⟩ : Fin 400) (⟨(y 1).val, h1⟩ : Fin 128) :=
    funext fun a => by
      match a with
      | ⟨0, _⟩ => rfl
      | ⟨1, _⟩ => rfl
  have hemb : ((cfg0.win 5).blk t).view.emb y = ix2 (row t ⟨(y 0).val, h0⟩) (⟨(y 1).val, h1⟩ : Fin 128) :=
    funext fun a => Fin.ext (by
      match a with
      | ⟨0, _⟩ => show win0_5.index t (0 : Fin 2) * 400 + 1 * (y 0).val = 400 * t.val + (y 0).val; rw [e0]; omega
      | ⟨1, _⟩ => show win0_5.index t (1 : Fin 2) * 128 + 1 * (y 1).val = (y 1).val; rw [e1]; omega)
  show k0_pay1 (F := Ideal) (iblk m c 0 t) (iblk m c 1 t) (iblk m c 3 t) (View.ld (iblk m c 1 t) (Rect.unit (s := S10000x128) (k0_off1 (grid0.coords t)) S400x128.size (Facts₀.k0_off1_inb (grid0.coords t))))
      (iblk m c 2 t) (iblk m c 4 t) ((cfg0.win 5).xinj (grid0.coords t) y) = G m c (((cfg0.win 5).blk t).view.emb y)
  rw [hy, hemb]
  exact block_entry m c t ⟨(y 0).val, h0⟩ ⟨(y 1).val, h1⟩

/-- An index of the result array is in point t's block exactly when its coordinates are in the block's ranges. -/
theorem mem_blk (t : Fin cfg0.N) (i : S10000x128.Idx) :
    i ∈ ((cfg0.win 5).blk t).view.set ↔ ∀ a : Fin 2, win0_5.index t a * S400x128.size a ≤ (i a).val
      ∧ (i a).val < win0_5.index t a * S400x128.size a + S400x128.size a := by
  show i ∈ ((View.whole main_v2).slice (win0_5.rect t)).set ↔ _
  rw [View.set_slice_whole, Rect.mem_set_unit]
  exact Iff.rfl

/-- Row r of the result array is in the block of point r / 400. -/
theorem cover (i : S10000x128.Idx) :
    ∃ t : Fin cfg0.N, (cfg0.win 5).flush t = true ∧ i ∈ ((cfg0.win 5).blk t).view.set := by
  have hi0 : (i 0).val < 10000 := (i 0).isLt
  have hi1 : (i 1).val < 128 := (i 1).isLt
  have hN : cfg0.N = 25 := N_0
  obtain ⟨t, ht⟩ : ∃ t : Fin cfg0.N, t.val = (i 0).val / 400 := ⟨⟨(i 0).val / 400, by omega⟩, rfl⟩
  obtain ⟨-, -, -, -, -, -, -, -, -, -, e0, e1, -⟩ := idx_facts t
  refine ⟨t, flush0_5 t, ?_⟩
  rw [mem_blk]
  intro a
  match a with
  | ⟨0, _⟩ =>
    show win0_5.index t (0 : Fin 2) * 400 ≤ (i 0).val ∧ (i 0).val < win0_5.index t (0 : Fin 2) * 400 + 400
    rw [e0, ht]; omega
  | ⟨1, _⟩ =>
    show win0_5.index t (1 : Fin 2) * 128 ≤ (i 1).val ∧ (i 1).val < win0_5.index t (1 : Fin 2) * 128 + 128
    rw [e1]; omega

/-- The result array after the run is the layer's output. -/
theorem final (c : Dev nD) : (dats m 0 c).arrAt 5 cfg0.N = G m c :=
  (dats m 0 c).arrAt_eq_of_cover 5 (G m c) (fun t _ => flushed_eq m c t) cover

/-- The kernel's run: the result at the layer's output of the arguments, the arguments unchanged. -/
theorem run : θ_run defs (onTc (τ := τ) (main (F := Ideal))) ⟨m, fun _ => 0, ρ⟩ fun r => ∀ c : Dev nD,
      r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end AtIdeal

end Cert.KernelIdeal.ArrayValue

end
-- ==== Proof.RefRun.lean ====
/-
  The reference program's run, read back.

  The reference is a straight line of thirty host operations once the two functions it calls are read at their call
  sites: the product L · x; the diagonal matrix of d (a comparison of a row iota with a column iota selecting between d
  broadcast along the rows and zero); the identity matrix (the same comparison converted to a float); their sum; the
  product of L · x with it; the difference from x; the product with W; the bias broadcast down the rows and added.
  Every weakly fair execution terminates with the result buffer at that composed term of the arguments and the
  arguments unchanged.
-/
import proofs.«111476_g9019431321742_cont_sun_c4_46_19_alg».proof.Proof.Gen.ReferenceIdeal
import Idealize.ShloMosaic.Lib.StableHlo.Run

noncomputable section

namespace Cert.ReferenceIdeal.HandRun

open Cert.ReferenceIdeal Idealize.ShloMosaic Idealize.ShloMosaic.TcCoe Idealize.SL.Sem
open Idealize.ShloMosaic.StableHlo Cert.ReferenceIdeal.Facts₀

variable {F : FTy → Type} [FloatOps F]

/-- The diagonal's mask: the row iota (plus the zero word) compared with the column iota. -/
def diagMask : IVec S128x128 1 :=
  cmpi .eq (addi (iotaInDim S128x128 32 0) (broadcastInDim S128x128 ![] bcast_S_S128x128 (constantI S_ 32 0#32)))
    (iotaInDim S128x128 32 1)

/-- The diagonal matrix of a vector: the vector along the rows on the diagonal, zero off it. -/
def diagOf (d : FVec F S128 .f32) : FVec F S128x128 .f32 :=
  select diagMask
    (broadcastInDim S128x128 ![0, 1] bcast_S128x1_S128x128_0_1
      (broadcastInDim S128x1 ![0] bcast_S128_S128x1_0
        (pad S128 ![0] ![0] ![0] d (constant (F := F) S_ .f32 0x00000000#32) pads_S128_S128_000 h_S_)))
    (broadcastInDim S128x128 ![] bcast_S_S128x128 (constant (F := F) S_ .f32 0x00000000#32))

/-- The identity matrix: the mask converted to a float. -/
def eye : FVec F S128x128 .f32 := uitofp .f32 diagMask

/-- The reference's result as one term of its arguments. -/
def refOut (x : FVec F S10000x128 .f32) (L : FVec F S10000x10000 .f32) (W : FVec F S128x128 .f32)
    (d b : FVec F S128 .f32) : FVec F S10000x128 .f32 :=
  addf
    (Host.dotGeneral dot_S10000x128_S128x128_S10000x128_1_0_0_1_n_n none
      (subf x (Host.dotGeneral dot_S10000x128_S128x128_S10000x128_1_0_0_1_n_n none (Host.dotGeneral dot_S10000x10000_S10000x128_S10000x128_1_0_0_1_n_n none L x) (addf (diagOf d) eye))) W)
    (broadcastInDim S10000x128 ![0, 1] bcast_S1x128_S10000x128_0_1 (broadcastInDim S1x128 ![1] bcast_S128_S1x128_1 b))

/-- @main's operations in order, the two calls read at their call sites: the diagonal's eleven operations and, inside
    them, the select's three. -/
abbrev ops : List (HloOp τ sig (Elt F)) :=
  [ binary main_arg1 main_arg0 main_v0 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    TRef.nullary main_call0.cst (constant S_ .f32 0x00000000#32),
    TRef.binary (.of main_arg3) main_call0.cst main_call0.v0 (fun x v => pad S128 ![0] ![0] ![0] x v pads_S128_S128_000 h_S_),
    TRef.nullary main_call0.v1 (iotaInDim S128x128 32 0),
    TRef.nullary main_call0.v2 (iotaInDim S128x128 32 1),
    TRef.nullary main_call0.c (constantI S_ 32 0#32),
    TRef.unary main_call0.c main_call0.v3 (broadcastInDim S128x128 ![] bcast_S_S128x128),
    TRef.binary main_call0.v1 main_call0.v3 main_call0.v4 addi,
    TRef.binary main_call0.v4 main_call0.v2 main_call0.v5 (cmpi .eq),
    TRef.unary main_call0.v0 main_call0.v6 (broadcastInDim S128x1 ![0] bcast_S128_S128x1_0),
    TRef.nullary main_call0.cst_0 (constant S_ .f32 0x00000000#32),
    TRef.unary main_call0.v6 main_call0.call0.v0 (broadcastInDim S128x128 ![0, 1] bcast_S128x1_S128x128_0_1),
    TRef.unary main_call0.cst_0 main_call0.call0.v1 (broadcastInDim S128x128 ![] bcast_S_S128x128),
    TRef.ternary main_call0.v5 main_call0.call0.v0 main_call0.call0.v1 main_call0.call0.v2 select,
    nullary main_v2 (iotaInDim S128x128 32 0),
    nullary main_v3 (iotaInDim S128x128 32 1),
    nullary main_c (constantI S_ 32 0#32),
    unary main_c main_v4 (broadcastInDim S128x128 ![] bcast_S_S128x128 : (⟨S_, .i32⟩ : BufTy).Contents (Elt F) → (⟨S128x128, .i32⟩ : BufTy).Contents (Elt F)),
    binary main_v2 main_v4 main_v5 (addi : (⟨S128x128, .i32⟩ : BufTy).Contents (Elt F) → (⟨S128x128, .i32⟩ : BufTy).Contents (Elt F) → (⟨S128x128, .i32⟩ : BufTy).Contents (Elt F)),
    binary main_v5 main_v3 main_v6 (cmpi .eq : (⟨S128x128, .i32⟩ : BufTy).Contents (Elt F) → (⟨S128x128, .i32⟩ : BufTy).Contents (Elt F) → (⟨S128x128, .i1⟩ : BufTy).Contents (Elt F)),
    unary main_v6 main_v7 (uitofp .f32 : (⟨S128x128, .i1⟩ : BufTy).Contents (Elt F) → (⟨S128x128, .f32⟩ : BufTy).Contents (Elt F)),
    binary main_v1 main_v7 main_v8 (addf : (⟨S128x128, .f32⟩ : BufTy).Contents (Elt F) → (⟨S128x128, .f32⟩ : BufTy).Contents (Elt F) → (⟨S128x128, .f32⟩ : BufTy).Contents (Elt F)),
    binary main_v0 main_v8 main_v9 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    binary main_arg0 main_v9 main_v10 (subf : (⟨S10000x128, .f32⟩ : BufTy).Contents (Elt F) → (⟨S10000x128, .f32⟩ : BufTy).Contents (Elt F) → (⟨S10000x128, .f32⟩ : BufTy).Contents (Elt F)),
    binary main_v10 main_arg2 main_v11 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    unary main_arg4 main_v12 (broadcastInDim S1x128 ![1] bcast_S128_S1x128_1 : (⟨S128, .f32⟩ : BufTy).Contents (Elt F) → (⟨S1x128, .f32⟩ : BufTy).Contents (Elt F)),
    unary main_v12 main_v13 (broadcastInDim S10000x128 ![0, 1] bcast_S1x128_S10000x128_0_1 : (⟨S1x128, .f32⟩ : BufTy).Contents (Elt F) → (⟨S10000x128, .f32⟩ : BufTy).Contents (Elt F)),
    binary main_v11 main_v13 main_v14 (addf : (⟨S10000x128, .f32⟩ : BufTy).Contents (Elt F) → (⟨S10000x128, .f32⟩ : BufTy).Contents (Elt F) → (⟨S10000x128, .f32⟩ : BufTy).Contents (Elt F)) ]

/-- @main is that straight line: the two functions' definitions unfolded at their calls, sequencing reassociated. -/
theorem main_eq (c : Dev nD) : main (F := F) c = seq ops := by
  simp only [main, fn_diag.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., nullary_bufs_sub .., binary_bufs_sub .., nullary_bufs_sub .., nullary_bufs_sub ..,
    nullary_bufs_sub .., unary_bufs_sub .., binary_bufs_sub .., binary_bufs_sub .., unary_bufs_sub ..,
    nullary_bufs_sub .., unary_bufs_sub .., unary_bufs_sub .., ternary_bufs_sub ..,
    nullary_bufs_sub .., nullary_bufs_sub .., nullary_bufs_sub .., unary_bufs_sub .., binary_bufs_sub ..,
    binary_bufs_sub .., unary_bufs_sub .., binary_bufs_sub .., binary_bufs_sub .., binary_bufs_sub ..,
    binary_bufs_sub .., unary_bufs_sub .., unary_bufs_sub .., binary_bufs_sub ..⟩

/-- Every buffer after the run is the operations' fold over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

end Cert.ReferenceIdeal.HandRun

end
-- ==== Proof.LibTypedOps.lean ====
/-
  A host operation written over typed references is the plain operation.

  A module-local function's operations are written over references that carry the type of the tensor value they
  hold; such an operation applies its function after transporting the operands' contents, and before transporting
  the result's, along the equation between the carried type and the reference's own type. At a reference that
  carries its own type that equation is reflexivity, the transports are the identity, and the operation is the
  plain one at the same references with the same function. So a list of operations that mixes the two spellings
  can be respelt in plain operations one operation at a time, each step a statement about one small term; the
  fold of the respelt list over the launch contents then contains no transport at all. This holds over any
  signature and any value type.
-/
import Idealize.ShloMosaic.Lib.StableHlo

noncomputable section

namespace Cert.Lib.TypedOps

open Idealize.ShloMosaic Idealize.ShloMosaic.StableHlo

variable {τ : Topo} {sig : RefSig} {Val : EltTy → Type}

/-- At a reference carrying its own type the transport is the identity: the constant. -/
theorem tnullary_plain (y : Ref sig .tc) (h1 : y.space ≠ .host) (h2 : y.isScoped = false) (v : y.ty.Contents Val) :
    (TRef.nullary (⟨y, rfl, h1, h2⟩ : TRef sig y.ty) v : HloOp τ sig Val) = nullary y v ⟨h1, h2⟩ := rfl

/-- … the one-operand operation. -/
theorem tunary_plain (x y : Ref sig .tc) (hx1 : x.space ≠ .host) (hx2 : x.isScoped = false)
    (hy1 : y.space ≠ .host) (hy2 : y.isScoped = false) (f : x.ty.Contents Val → y.ty.Contents Val) :
    (TRef.unary (⟨x, rfl, hx1, hx2⟩ : TRef sig x.ty) (⟨y, rfl, hy1, hy2⟩ : TRef sig y.ty) f : HloOp τ sig Val)
      = unary x y f ⟨hx1, hx2⟩ ⟨hy1, hy2⟩ := rfl

/-- … the two-operand operation. -/
theorem tbinary_plain (a b y : Ref sig .tc) (ha1 : a.space ≠ .host) (ha2 : a.isScoped = false)
    (hb1 : b.space ≠ .host) (hb2 : b.isScoped = false) (hy1 : y.space ≠ .host) (hy2 : y.isScoped = false)
    (f : a.ty.Contents Val → b.ty.Contents Val → y.ty.Contents Val) :
    (TRef.binary (⟨a, rfl, ha1, ha2⟩ : TRef sig a.ty) (⟨b, rfl, hb1, hb2⟩ : TRef sig b.ty) (⟨y, rfl, hy1, hy2⟩ : TRef sig y.ty) f :
        HloOp τ sig Val)
      = binary a b y f ⟨ha1, ha2⟩ ⟨hb1, hb2⟩ ⟨hy1, hy2⟩ := rfl

/-- … the three-operand operation. -/
theorem tternary_plain (c a b y : Ref sig .tc) (hc1 : c.space ≠ .host) (hc2 : c.isScoped = false)
    (ha1 : a.space ≠ .host) (ha2 : a.isScoped = false) (hb1 : b.space ≠ .host) (hb2 : b.isScoped = false)
    (hy1 : y.space ≠ .host) (hy2 : y.isScoped = false)
    (f : c.ty.Contents Val → a.ty.Contents Val → b.ty.Contents Val → y.ty.Contents Val) :
    (TRef.ternary (⟨c, rfl, hc1, hc2⟩ : TRef sig c.ty) (⟨a, rfl, ha1, ha2⟩ : TRef sig a.ty) (⟨b, rfl, hb1, hb2⟩ : TRef sig b.ty)
        (⟨y, rfl, hy1, hy2⟩ : TRef sig y.ty) f : HloOp τ sig Val)
      = ternary c a b y f ⟨hc1, hc2⟩ ⟨ha1, ha2⟩ ⟨hb1, hb2⟩ ⟨hy1, hy2⟩ := rfl

end Cert.Lib.TypedOps

end
-- ==== Proof.RefResult.lean ====
/-
  The reference's run with its result named: the result buffer ends at the composed term of the arguments as launched,
  and the five arguments end as launched (no operation writes an argument).

  The operations of the two called functions are written over references that carry their value's type; each such
  operation is the plain operation at the same references, so the list is respelt in plain operations and the fold
  over the launch contents is then read off one operation at a time.
-/
import proofs.«111476_g9019431321742_cont_sun_c4_46_19_alg».proof.Proof.RefRun
import proofs.«111476_g9019431321742_cont_sun_c4_46_19_alg».proof.Proof.LibTypedOps

noncomputable section

namespace Cert.ReferenceIdeal.HandRun

open Cert.ReferenceIdeal Idealize.ShloMosaic Idealize.ShloMosaic.TcCoe Idealize.SL.Sem
open Idealize.ShloMosaic.StableHlo Cert.ReferenceIdeal.Facts₀

variable {F : FTy → Type} [FloatOps F]

/-- The same thirty operations, every one in its plain spelling. -/
abbrev ops' : List (HloOp τ sig (Elt F)) :=
  [ binary main_arg1 main_arg0 main_v0 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    nullary main_call0_cst (constant S_ .f32 0x00000000#32),
    binary main_arg3 main_call0_cst main_call0_v0 (fun x v => pad S128 ![0] ![0] ![0] x v pads_S128_S128_000 h_S_),
    nullary main_call0_v1 (iotaInDim S128x128 32 0),
    nullary main_call0_v2 (iotaInDim S128x128 32 1),
    nullary main_call0_c (constantI S_ 32 0#32),
    unary main_call0_c main_call0_v3 (broadcastInDim S128x128 ![] bcast_S_S128x128),
    binary main_call0_v1 main_call0_v3 main_call0_v4 addi,
    binary main_call0_v4 main_call0_v2 main_call0_v5 (cmpi .eq),
    unary main_call0_v0 main_call0_v6 (broadcastInDim S128x1 ![0] bcast_S128_S128x1_0),
    nullary main_call0_cst_0 (constant S_ .f32 0x00000000#32),
    unary main_call0_v6 main_call0_call0_v0 (broadcastInDim S128x128 ![0, 1] bcast_S128x1_S128x128_0_1),
    unary main_call0_cst_0 main_call0_call0_v1 (broadcastInDim S128x128 ![] bcast_S_S128x128),
    ternary main_call0_v5 main_call0_call0_v0 main_call0_call0_v1 main_v1 select,
    nullary main_v2 (iotaInDim S128x128 32 0),
    nullary main_v3 (iotaInDim S128x128 32 1),
    nullary main_c (constantI S_ 32 0#32),
    unary main_c main_v4 (broadcastInDim S128x128 ![] bcast_S_S128x128 : (⟨S_, .i32⟩ : BufTy).Contents (Elt F) → (⟨S128x128, .i32⟩ : BufTy).Contents (Elt F)),
    binary main_v2 main_v4 main_v5 (addi : (⟨S128x128, .i32⟩ : BufTy).Contents (Elt F) → (⟨S128x128, .i32⟩ : BufTy).Contents (Elt F) → (⟨S128x128, .i32⟩ : BufTy).Contents (Elt F)),
    binary main_v5 main_v3 main_v6 (cmpi .eq : (⟨S128x128, .i32⟩ : BufTy).Contents (Elt F) → (⟨S128x128, .i32⟩ : BufTy).Contents (Elt F) → (⟨S128x128, .i1⟩ : BufTy).Contents (Elt F)),
    unary main_v6 main_v7 (uitofp .f32 : (⟨S128x128, .i1⟩ : BufTy).Contents (Elt F) → (⟨S128x128, .f32⟩ : BufTy).Contents (Elt F)),
    binary main_v1 main_v7 main_v8 (addf : (⟨S128x128, .f32⟩ : BufTy).Contents (Elt F) → (⟨S128x128, .f32⟩ : BufTy).Contents (Elt F) → (⟨S128x128, .f32⟩ : BufTy).Contents (Elt F)),
    binary main_v0 main_v8 main_v9 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    binary main_arg0 main_v9 main_v10 (subf : (⟨S10000x128, .f32⟩ : BufTy).Contents (Elt F) → (⟨S10000x128, .f32⟩ : BufTy).Contents (Elt F) → (⟨S10000x128, .f32⟩ : BufTy).Contents (Elt F)),
    binary main_v10 main_arg2 main_v11 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    unary main_arg4 main_v12 (broadcastInDim S1x128 ![1] bcast_S128_S1x128_1 : (⟨S128, .f32⟩ : BufTy).Contents (Elt F) → (⟨S1x128, .f32⟩ : BufTy).Contents (Elt F)),
    unary main_v12 main_v13 (broadcastInDim S10000x128 ![0, 1] bcast_S1x128_S10000x128_0_1 : (⟨S1x128, .f32⟩ : BufTy).Contents (Elt F) → (⟨S10000x128, .f32⟩ : BufTy).Contents (Elt F)),
    binary main_v11 main_v13 main_v14 (addf : (⟨S10000x128, .f32⟩ : BufTy).Contents (Elt F) → (⟨S10000x128, .f32⟩ : BufTy).Contents (Elt F) → (⟨S10000x128, .f32⟩ : BufTy).Contents (Elt F)) ]

/-- The two lists are one: each typed operation is the plain one at the same references. -/
theorem ops_eq : (ops : List (HloOp τ sig (Elt F))) = ops' := rfl

/-- The result buffer after the operations: the composed term of the arguments. -/
theorem result_eq (V : Valuation τ sig (Elt F)) :
    after ops V (Proc.devRef .tc main_v14)
      = refOut (V (Proc.devRef .tc main_arg0)) (V (Proc.devRef .tc main_arg1)) (V (Proc.devRef .tc main_arg2))
          (V (Proc.devRef .tc main_arg3)) (V (Proc.devRef .tc main_arg4)) := by
  rw [ops_eq]
  after_results_simp
  rfl

/-- No operation writes argument 0. -/
theorem arg0_eq (V : Valuation τ sig (Elt F)) :
    after ops V (Proc.devRef .tc main_arg0) = V (Proc.devRef .tc main_arg0) := by
  rw [ops_eq]
  after_results_simp

/-- No operation writes argument 1. -/
theorem arg1_eq (V : Valuation τ sig (Elt F)) :
    after ops V (Proc.devRef .tc main_arg1) = V (Proc.devRef .tc main_arg1) := by
  rw [ops_eq]
  after_results_simp

/-- No operation writes argument 2. -/
theorem arg2_eq (V : Valuation τ sig (Elt F)) :
    after ops V (Proc.devRef .tc main_arg2) = V (Proc.devRef .tc main_arg2) := by
  rw [ops_eq]
  after_results_simp

/-- No operation writes argument 3. -/
theorem arg3_eq (V : Valuation τ sig (Elt F)) :
    after ops V (Proc.devRef .tc main_arg3) = V (Proc.devRef .tc main_arg3) := by
  rw [ops_eq]
  after_results_simp

/-- No operation writes argument 4. -/
theorem arg4_eq (V : Valuation τ sig (Elt F)) :
    after ops V (Proc.devRef .tc main_arg4) = V (Proc.devRef .tc main_arg4) := by
  rw [ops_eq]
  after_results_simp

/-- On every device, from any memory with zero counters: every weakly fair execution of @main terminates with the result
    at the composed term of the arguments as launched, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v14) = refOut (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v14).trans (result_eq _), (h c main_arg0).trans (arg0_eq _),
      (h c main_arg1).trans (arg1_eq _), (h c main_arg2).trans (arg2_eq _), (h c main_arg3).trans (arg3_eq _),
      (h c main_arg4).trans (arg4_eq _)⟩)
    (run_fold m ρ)

end Cert.ReferenceIdeal.HandRun

end
-- ==== Proof.Mask.lean ====
/-
  The diagonal mask of a [128, 128] matrix, as the host computes it.

  Entry (a, b) of the mask compares the 32-bit word of a (plus the zero word) with the 32-bit word of b. Both
  numbers are below 128, far below 2^32, so the words are equal exactly when a = b: the mask's bit is 1 on the
  diagonal and 0 off it. A select on that bit is the corresponding "if", and the bit converted to a float is 1 on the
  diagonal and 0 off it.
-/
import Idealize.ShloMosaic.PureOps.Ideal
import Idealize.ShloMosaic.Lib.ValueIdx

noncomputable section

namespace Cert.Layer

open Idealize.ShloMosaic Idealize.ShloMosaic.ValueIdx

/-- The mask's bit at (a, b). -/
theorem diagBit (a b : Fin 128) :
    IntOp.cmpi .eq (IntOp.addi (BitVec.ofNat 32 a.val) 0#32) (BitVec.ofNat 32 b.val) = if a = b then 1#1 else 0#1 := by
  have ha := a.isLt
  have hb := b.isLt
  unfold IntOp.cmpi IntOp.addi
  rw [BitVec.add_zero]
  by_cases h : a = b
  · subst h
    rw [if_pos rfl]
    simp
  · rw [if_neg h]
    have hne : BitVec.ofNat 32 a.val ≠ BitVec.ofNat 32 b.val := by
      intro e
      have e' := congrArg BitVec.toNat e
      rw [BitVec.toNat_ofNat, BitVec.toNat_ofNat] at e'
      exact h (Fin.ext (by omega))
    rw [beq_eq_false_iff_ne.mpr hne]
    rfl

/-- A select on the mask's bit is the "if" on the coordinates. -/
theorem select_diagBit {α : Type} (a b : Fin 128) (X Y : α) :
    Scalar.select (if a = b then 1#1 else 0#1) X Y = if a = b then X else Y := by
  by_cases h : a = b
  · rw [if_pos h, if_pos h, select_one]
  · rw [if_neg h, if_neg h, select_zero]

/-- The mask's bit converted to a float: 1 on the diagonal, 0 off it. -/
theorem uitofp_diagBit (a b : Fin 128) :
    (FloatOps.uitofp (F := Ideal) .f32 (if a = b then 1#1 else 0#1) : EReal) = if a = b then 1 else 0 := by
  by_cases h : a = b
  · rw [if_pos h, if_pos h]
    show (((1#1 : BitVec 1).toNat : ℝ) : EReal) = 1
    simp
  · rw [if_neg h, if_neg h]
    show (((0#1 : BitVec 1).toNat : ℝ) : EReal) = 0
    simp

end Cert.Layer

end
-- ==== Proof.RefValue.lean ====
/-
  The reference's result, read at an entry, is the layer's output.

  The diagonal matrix of d has d[a] at (a, a) and 0 elsewhere; the identity matrix has 1 at (a, a) and 0 elsewhere.
  The three products are plain sums. Row r of L · x multiplied into diag(d) + I picks out entry k scaled by 1 + d[k]
  (every other summand is a product with 0 + 0), and what remains is the layer's formula, entry by entry.
-/
import proofs.«111476_g9019431321742_cont_sun_c4_46_19_alg».proof.Proof.RefRun
import proofs.«111476_g9019431321742_cont_sun_c4_46_19_alg».proof.Proof.Spec
import proofs.«111476_g9019431321742_cont_sun_c4_46_19_alg».proof.Proof.Mask
import proofs.«111476_g9019431321742_cont_sun_c4_46_19_alg».proof.Proof.LibPlainDot
import Idealize.ShloMosaic.Lib.Pipeline.Value
import Idealize.ShloMosaic.Lib.KernelVsHost

noncomputable section

namespace Cert.ReferenceIdeal.RefValue

open Cert.ReferenceIdeal Cert.ReferenceIdeal.HandRun Idealize.ShloMosaic Idealize.ShloMosaic.ValueIdx
open Cert.ReferenceIdeal.Facts₀ Cert.Layer
open scoped BigOperators

/-- The first product's dimension numbers are the plain [10000, 10000] × [10000, 128] ones. -/
theorem dotL_eq : dot_S10000x10000_S10000x128_S10000x128_1_0_0_1_n_n = Cert.Lib.PlainDot.dims dot_S10000x10000_S10000x128_S10000x128_1_0_0_1_n_n_wf := rfl

/-- The other two products' are the plain [10000, 128] × [128, 128] ones. -/
theorem dotW_eq : dot_S10000x128_S128x128_S10000x128_1_0_0_1_n_n = Cert.Lib.PlainDot.dims dot_S10000x128_S128x128_S10000x128_1_0_0_1_n_n_wf := rfl

/-- The mask's bit at (a, b). -/
theorem diagMask_apply (a b : Fin 128) : diagMask (ix2 a b) = if a = b then 1#1 else 0#1 := by
  show IntOp.cmpi .eq (IntOp.addi (BitVec.ofNat 32 a.val) 0#32) (BitVec.ofNat 32 b.val) = _
  exact diagBit a b

/-- A vector laid along the rows of a [128, 128] matrix, at (a, b): its entry a. -/
theorem rows_apply (d : FVec Ideal S128 .f32) (a b : Fin 128) :
    broadcastInDim S128x128 ![0, 1] bcast_S128x1_S128x128_0_1
        (broadcastInDim S128x1 ![0] bcast_S128_S128x1_0
          (pad S128 ![0] ![0] ![0] d (constant (F := Ideal) S_ .f32 0x00000000#32) pads_S128_S128_000 h_S_)) (ix2 a b)
      = d (ix1 a) := by
  rw [broadcastInDim_apply _ _ _ (ix2 a b) (ix2 a (0 : Fin 1)) (fun ax => by
        match ax with
        | ⟨0, _⟩ => rfl
        | ⟨1, _⟩ => rfl),
    broadcastInDim_apply _ _ _ (ix2 a (0 : Fin 1)) (ix1 a) (fun ax => by
        match ax with
        | ⟨0, _⟩ => rfl)]
  exact pad_apply_of_inside _ _ _ d _ _ _ (ix1 a) (ix1 a) (fun ax => by
    match ax with
    | ⟨0, _⟩ => show a.val = 0 + a.val * (0 + 1); omega)

/-- The diagonal matrix of d at (a, b). -/
theorem diagOf_apply (d : FVec Ideal S128 .f32) (a b : Fin 128) :
    diagOf d (ix2 a b) = if a = b then d (ix1 a) else 0 := by
  unfold diagOf
  rw [select_apply, diagMask_apply, select_diagBit, rows_apply]
  refine if_congr Iff.rfl rfl ?_
  exact Ideal.ofBits_zero_f32

/-- The identity matrix at (a, b). -/
theorem eye_apply (a b : Fin 128) : (eye (F := Ideal)) (ix2 a b) = if a = b then 1 else 0 := by
  unfold eye
  show FloatOps.uitofp (F := Ideal) .f32 (diagMask (ix2 a b)) = _
  rw [diagMask_apply]
  exact uitofp_diagBit a b

/-- The bias laid along the rows, at (r, j): its entry j. -/
theorem bias_apply (b : FVec Ideal S128 .f32) (r : Fin 10000) (j : Fin 128) :
    broadcastInDim S10000x128 ![0, 1] bcast_S1x128_S10000x128_0_1 (broadcastInDim S1x128 ![1] bcast_S128_S1x128_1 b) (ix2 r j)
      = b (ix1 j) := by
  rw [broadcastInDim_apply _ _ _ (ix2 r j) (ix2 (0 : Fin 1) j) (fun ax => by
        match ax with
        | ⟨0, _⟩ => rfl
        | ⟨1, _⟩ => rfl),
    broadcastInDim_apply _ _ _ (ix2 (0 : Fin 1) j) (ix1 j) (fun ax => by
        match ax with
        | ⟨0, _⟩ => rfl)]

/-- The reference's result is the layer's output of its arguments. -/
theorem refOut_eq (x : FVec Ideal S10000x128 .f32) (L : FVec Ideal S10000x10000 .f32) (W : FVec Ideal S128x128 .f32)
    (d b : FVec Ideal S128 .f32) : refOut x L W d b = layerOut x L W d b := by
  funext i
  obtain ⟨r, j, rfl⟩ : ∃ (r : Fin 10000) (j : Fin 128), i = ix2 r j := ⟨i 0, i 1, eq_ix2 i⟩
  rw [layerOut_apply]
  unfold refOut layerAt
  rw [addf_apply, bias_apply, dotW_eq, Cert.Lib.PlainDot.dotGeneral_apply]
  refine congrArg (· + b (ix1 j)) (Finset.sum_congr rfl fun k _ => ?_)
  refine congrArg (· * W (ix2 k j)) ?_
  unfold resid prop
  rw [subf_apply, Cert.Lib.PlainDot.dotGeneral_apply]
  refine congrArg (x (ix2 r k) - ·) ?_
  have e : ∀ k' : Fin 128,
      Host.dotGeneral dot_S10000x10000_S10000x128_S10000x128_1_0_0_1_n_n none L x (ix2 r k') * addf (diagOf d) eye (ix2 k' k)
        = (∑ n : Fin 10000, L (ix2 r n) * x (ix2 n k'))
            * ((if k' = k then d (ix1 k') else 0) + (if k' = k then 1 else 0)) := fun k' => by
    rw [dotL_eq, Cert.Lib.PlainDot.dotGeneral_apply, addf_apply, diagOf_apply, eye_apply]
  rw [Finset.sum_congr rfl fun k' _ => e k']
  exact sum_diag_add_eye (fun k' => ∑ n : Fin 10000, L (ix2 r n) * x (ix2 n k')) (fun k' => d (ix1 k')) k

end Cert.ReferenceIdeal.RefValue

end
-- ==== Proof.lean ====
/-
  The fused graph layer against its reference, over the extended reals.

  With x : [10000, 128], L : [10000, 10000], W : [128, 128] and d, b : [128], both programs compute

    out[r, j] = (∑ k, (x[r, k] - (∑ n, L[r, n] * x[n, k]) * (1 + d[k])) * W[k, j]) + b[j].

  The kernel walks 25 blocks of 400 rows of L. For each block it forms the block's rows of L · x, scales column k by
  1 + d[k], subtracts from the same rows of x, multiplies by W and adds b; the roundings to bf16 in front of the second
  product are the identity on exact values, and both products accumulate into zero. The 25 blocks of rows tile the
  result.

  The reference forms L · x whole, multiplies it by the matrix diag(d) + I, subtracts from x, multiplies by W and adds
  b. A row times diag(d) + I is the row with entry k scaled by d[k] + 1: every other summand is a product with 0 + 0,
  which is 0 for every extended real, so the two sides agree whatever the inputs and the precondition is not used.

  The kernel's idealization rewrote nothing, so its preservation claim is trivial. The three frames: the kernel's two
  are the generated frame certificates; the reference's is its run with the result dropped.
-/
import proofs.«111476_g9019431321742_cont_sun_c4_46_19_alg».proof.Defs
import proofs.«111476_g9019431321742_cont_sun_c4_46_19_alg».proof.Proof.Gen.Kernel
import proofs.«111476_g9019431321742_cont_sun_c4_46_19_alg».proof.Proof.Gen.Kernel.Frame
import proofs.«111476_g9019431321742_cont_sun_c4_46_19_alg».proof.Proof.Gen.KernelIdeal
import proofs.«111476_g9019431321742_cont_sun_c4_46_19_alg».proof.Proof.Gen.KernelIdeal.Frame
import proofs.«111476_g9019431321742_cont_sun_c4_46_19_alg».proof.Proof.Gen.KernelIdeal.Value
import proofs.«111476_g9019431321742_cont_sun_c4_46_19_alg».proof.Proof.Gen.ReferenceIdeal
import proofs.«111476_g9019431321742_cont_sun_c4_46_19_alg».proof.Proof.Gen.Pre_finite_inputs
import proofs.«111476_g9019431321742_cont_sun_c4_46_19_alg».proof.Proof.KernelValue
import proofs.«111476_g9019431321742_cont_sun_c4_46_19_alg».proof.Proof.RefResult
import proofs.«111476_g9019431321742_cont_sun_c4_46_19_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.HandRun.run (F := Ideal) m ρ)

theorem preserves : Cert.preserves_Kernel_KernelIdeal := trivial

/-- Both runs end at the layer's output of arguments that agree. -/
theorem algebraic : Cert.algebraic_KernelIdeal_ReferenceIdeal := by
  intro m ρ m' ρ' _ hagree
  refine ⟨fun c => Cert.KernelIdeal.ArrayValue.G m c, Cert.KernelIdeal.ArrayValue.run m ρ, ?_⟩
  refine (θ_run Cert.ReferenceIdeal.defs _ _).mono (fun _ h c => ⟨(h c).1.trans ?_, (h c).2⟩)
    (Cert.ReferenceIdeal.HandRun.run (F := Ideal) m' ρ')
  rw [(hagree c).1, (hagree c).2.1, (hagree c).2.2.1, (hagree c).2.2.2.1, (hagree c).2.2.2.2]
  exact Cert.ReferenceIdeal.RefValue.refOut_eq _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
